-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S600000x2 : Shape := ⟨2, ![600000, 2]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S200000x256 .f32) (main_arg1 : IVec S600000x2 32) (main_arg2 : FVec F S256x256 .f32) (main_arg3 : FVec F S256 .f32) (main_arg4 : FVec F S128x256 .f32) (main_arg5 : FVec F S128 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S200000x256 : Shape := ⟨2, ![200000, 256]⟩
abbrev S600000x2 : Shape := ⟨2, ![600000, 2]⟩
abbrev S256x256 : Shape := ⟨2, ![256, 256]⟩
abbrev S256 : Shape := ⟨1, ![256]⟩
abbrev S128x256 : Shape := ⟨2, ![128, 256]⟩
abbrev S128 : Shape := ⟨1, ![128]⟩
abbrev S256x128 : Shape := ⟨2, ![256, 128]⟩
abbrev S1x256 : Shape := ⟨2, ![1, 256]⟩
abbrev S1x128 : Shape := ⟨2, ![1, 128]⟩
abbrev S200000x128 : Shape := ⟨2, ![200000, 128]⟩
abbrev S2000x256 : Shape := ⟨2, ![2000, 256]⟩
abbrev S2000x128 : Shape := ⟨2, ![2000, 128]⟩
abbrev S600000x1 : Shape := ⟨2, ![600000, 1]⟩
abbrev S600000 : Shape := ⟨1, ![600000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩

abbrev nBuf : Space → Nat
  | .hbm => 36
  | .vmem => 16
  | .smem => 0
  | _ => 0

abbrev bufTy : (tb : Table) → Fin (tcTables nBuf tb) → BufTy
  | .hbm, ⟨0, _⟩ => ⟨S200000x256, .f32⟩
  | .hbm, ⟨1, _⟩ => ⟨S600000x2, .i32⟩
  | .hbm, ⟨2, _⟩ => ⟨S256x256, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S256x256, .f32⟩
  | .hbm, ⟨7, _⟩ => ⟨S256x128, .f32⟩
  | .hbm, ⟨8, _⟩ => ⟨S1x256, .f32⟩
  | .hbm, ⟨9, _⟩ => ⟨S1x128, .f32⟩
  | .hbm, ⟨10, _⟩ => ⟨S200000x256, .f32⟩
  | .hbm, ⟨11, _⟩ => ⟨S200000x128, .f32⟩
  | .hbm, ⟨12, _⟩ => ⟨S600000x1, .i32⟩
  | .hbm, ⟨13, _⟩ => ⟨S600000, .i32⟩
  | .hbm, ⟨14, _⟩ => ⟨S600000x1, .i32⟩
  | .hbm, ⟨15, _⟩ => ⟨S600000, .i32⟩
  | .hbm, ⟨16, _⟩ => ⟨S1200000, .i32⟩
  | .hbm, ⟨17, _⟩ => ⟨S600000x1, .i32⟩
  | .hbm, ⟨18, _⟩ => ⟨S600000, .i32⟩
  | .hbm, ⟨19, _⟩ => ⟨S600000x1, .i32⟩
  | .hbm, ⟨20, _⟩ => ⟨S600000, .i32⟩
  | .hbm, ⟨21, _⟩ => ⟨S1200000, .i32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x128, .f32⟩
  | .hbm, ⟨31, _⟩ => ⟨S_, .f32⟩
  | .hbm, ⟨32, _⟩ => ⟨S200000x128, .f32⟩
  | .hbm, ⟨33, _⟩ => ⟨S1200000x1, .i32⟩
  | .hbm, ⟨34, _⟩ => ⟨S200000x128, .f32⟩
  | .hbm, ⟨35, _⟩ => ⟨S200000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S2000x256, .f32⟩
  | .local _ .vmem, ⟨7, _⟩ => ⟨S2000x256, .f32⟩
  | .local _ .vmem, ⟨8, _⟩ => ⟨S2000x128, .f32⟩
  | .local _ .vmem, ⟨9, _⟩ => ⟨S2000x128, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S256x256_S256x256_1_0 : S256x256.Transposes [1, 0] S256x256
  transposes_S128x256_S256x128_1_0 : S128x256.Transposes [1, 0] S256x128
  shapeCasts_S256_S1x256 : S256.ShapeCasts S1x256
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S600000x2_S600000x1_0_1 : S600000x2.Slices ![0, 1] S600000x1
  shapeCasts_S600000x1_S600000 : S600000x1.ShapeCasts S600000
  slices_S600000x2_S600000x1_0_0 : S600000x2.Slices ![0, 0] S600000x1
  concatenates_S600000_S600000_S1200000_d0 : Shape.Concatenates [S600000, S600000] S1200000 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x128 : S_.BroadcastsInDim S200000x128 (![] : Fin 0 → Fin S200000x128.rank)
  shapeCasts_S2000x256_S2000x256 : S2000x256.ShapeCasts S2000x256
  shapeCasts_S2000x128_S2000x128 : S2000x128.ShapeCasts S2000x128
  slices_S2000x256_o0_0_S2000x128 : S2000x256.Slices ![0, 0] S2000x128
  inb_S2000x256_S2000x128_0_0 : ∀ a, (![0, 0] : Fin 2 → Nat) a + S2000x128.size a ≤ S2000x256.size a
  slices_S2000x256_o0_128_S2000x128 : S2000x256.Slices ![0, 128] S2000x128
  inb_S2000x256_S2000x128_0_128 : ∀ a, (![0, 128] : Fin 2 → Nat) a + S2000x128.size a ≤ S2000x256.size a
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S200000x128_S1200000x1_S1200000x128_1_0_n_n_0_1_1128_wf : GatherDims.WF S200000x128 S1200000x1 S1200000x128 [1] [0] [] [0] [] 1 ![1, 128]
  scatter_S200000x128_S1200000x1_S1200000x128_1_0_0_1_wf : ScatterDims.WF S200000x128 S1200000x1 S1200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S200000x256.size a
  hwx0_5 : ∀ i : grid0.Coords, EltTy.bits .f32 = 32 ∨ (Rect.block (s := S200000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S200000x128.size a
  hwx0_6 : ∀ i : grid0.Coords, EltTy.bits .f32 = 32 ∨ (Rect.block (s := S200000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S200000x256.size a
  hwx1_0 : ∀ i : grid1.Coords, EltTy.bits .f32 = 32 ∨ (Rect.block (s := S200000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S200000x128.size a
  hwx1_1 : ∀ i : grid1.Coords, EltTy.bits .f32 = 32 ∨ (Rect.block (s := S200000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S200000x256.size a
  hwx1_2 : ∀ i : grid1.Coords, EltTy.bits .f32 = 32 ∨ (Rect.block (s := S200000x256) S2000x256.size (cc1_transform_2 i) (hinb1_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def scatter_S200000x128_S1200000x1_S1200000x128_1_0_0_1 : ScatterDims S200000x128 S1200000x1 S1200000x128 where
  updateWindowDims := [1]
  insertedWindowDims := [0]
  scatterDimsToOperandDims := [0]
  indexVectorDim := 1
  wf := scatter_S200000x128_S1200000x1_S1200000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x256 : Shape := ⟨2, ![200000, 256]⟩
abbrev S600000x2 : Shape := ⟨2, ![600000, 2]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x256 : Shape := ⟨2, ![1, 256]⟩
abbrev S256x128 : Shape := ⟨2, ![256, 128]⟩
abbrev S200000x128 : Shape := ⟨2, ![200000, 128]⟩
abbrev S1x128 : Shape := ⟨2, ![1, 128]⟩
abbrev S600000x1 : Shape := ⟨2, ![600000, 1]⟩
abbrev S600000 : Shape := ⟨1, ![600000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩

abbrev nBuf : Space → Nat
  | .hbm => 43
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S600000x2, .i32⟩
  | .hbm, ⟨2, _⟩ => ⟨S256x256, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S256x256, .f32⟩
  | .hbm, ⟨7, _⟩ => ⟨S200000x256, .f32⟩
  | .hbm, ⟨8, _⟩ => ⟨S1x256, .f32⟩
  | .hbm, ⟨9, _⟩ => ⟨S200000x256, .f32⟩
  | .hbm, ⟨10, _⟩ => ⟨S200000x256, .f32⟩
  | .hbm, ⟨11, _⟩ => ⟨S256x128, .f32⟩
  | .hbm, ⟨12, _⟩ => ⟨S200000x128, .f32⟩
  | .hbm, ⟨13, _⟩ => ⟨S1x128, .f32⟩
  | .hbm, ⟨14, _⟩ => ⟨S200000x128, .f32⟩
  | .hbm, ⟨15, _⟩ => ⟨S200000x128, .f32⟩
  | .hbm, ⟨16, _⟩ => ⟨S600000x1, .i32⟩
  | .hbm, ⟨17, _⟩ => ⟨S600000, .i32⟩
  | .hbm, ⟨18, _⟩ => ⟨S600000x1, .i32⟩
  | .hbm, ⟨19, _⟩ => ⟨S600000, .i32⟩
  | .hbm, ⟨20, _⟩ => ⟨S1200000, .i32⟩
  | .hbm, ⟨21, _⟩ => ⟨S600000x1, .i32⟩
  | .hbm, ⟨22, _⟩ => ⟨S600000, .i32⟩
  | .hbm, ⟨23, _⟩ => ⟨S600000x1, .i32⟩
  | .hbm, ⟨24, _⟩ => ⟨S600000, .i32⟩
  | .hbm, ⟨25, _⟩ => ⟨S1200000, .i32⟩
  | .hbm, ⟨26, _⟩ => ⟨S_, .i32⟩
  | .hbm, ⟨27, _⟩ => ⟨S1200000, .i32⟩
  | .hbm, ⟨28, _⟩ => ⟨S1200000, .i1⟩
  | .hbm, ⟨29, _⟩ => ⟨S_, .i32⟩
  | .hbm, ⟨30, _⟩ => ⟨S1200000, .i32⟩
  | .hbm, ⟨31, _⟩ => ⟨S1200000, .i32⟩
  | .hbm, ⟨32, _⟩ => ⟨S1200000, .i32⟩
  | .hbm, ⟨33, _⟩ => ⟨S1200000x1, .i32⟩
  | .hbm, ⟨34, _⟩ => ⟨S1200000x128, .f32⟩
  | .hbm, ⟨35, _⟩ => ⟨S_, .f32⟩
  | .hbm, ⟨36, _⟩ => ⟨S200000x128, .f32⟩
  | .hbm, ⟨37, _⟩ => ⟨S1200000x1, .i32⟩
  | .hbm, ⟨38, _⟩ => ⟨S200000x128, .f32⟩
  | .hbm, ⟨39, _⟩ => ⟨S_, .i32⟩
  | .hbm, ⟨40, _⟩ => ⟨S_, .f32⟩
  | .hbm, ⟨41, _⟩ => ⟨S200000x256, .f32⟩
  | .hbm, ⟨42, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  transposes_S128x256_S256x128_1_0 : S128x256.Transposes [1, 0] S256x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S600000x2_S600000x1_0_1 : S600000x2.Slices ![0, 1] S600000x1
  shapeCasts_S600000x1_S600000 : S600000x1.ShapeCasts S600000
  slices_S600000x2_S600000x1_0_0 : S600000x2.Slices ![0, 0] S600000x1
  concatenates_S600000_S600000_S1200000_d0 : Shape.Concatenates [S600000, S600000] S1200000 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x128 : S_.BroadcastsInDim S200000x128 (![] : Fin 0 → Fin S200000x128.rank)
  pads_S200000x128_S200000x256_000_01280 : S200000x128.Pads (![0, 0] : Fin 2 → Nat) ![0, 128] ![0, 0] S200000x256
  h_S_ : 0 < S_.numel
  dot_S200000x256_S256x256_S200000x256_1_0_0_1_n_n_wf : DotDims.WF S200000x256 S256x256 S200000x256 [1] [0] [0] [1] [] []
  dot_S200000x256_S256x128_S200000x128_1_0_0_1_n_n_wf : DotDims.WF S200000x256 S256x128 S200000x128 [1] [0] [0] [1] [] []
  gather_S200000x128_S1200000x1_S1200000x128_1_0_n_n_0_1_1128_wf : GatherDims.WF S200000x128 S1200000x1 S1200000x128 [1] [0] [] [0] [] 1 ![1, 128]
  scatter_S200000x128_S1200000x1_S1200000x128_1_0_0_1_wf : ScatterDims.WF S200000x128 S1200000x1 S1200000x128 [1] [0] [0] 1

variable [Facts₀]

def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def scatter_S200000x128_S1200000x1_S1200000x128_1_0_0_1 : ScatterDims S200000x128 S1200000x1 S1200000x128 where
  updateWindowDims := [1]
  insertedWindowDims := [0]
  scatterDimsToOperandDims := [0]
  indexVectorDim := 1
  wf := scatter_S200000x128_S1200000x1_S1200000x128_1_0_0_1_wf

class Facts : Prop extends Facts₀ where

variable [Facts]
-- ==== Proof.Spec.lean ====
/-
  The mathematics of the graph convolution, stated once over whole arrays at the extended reals.

  Vertices carry 256 features. Two affine maps are applied to every vertex: `linear x w b` has entry
  `(p, q)` equal to `(∑ k, x[p, k] · w[q, k]) + b[q]` — row `p` of the features against row `q` of the weights.
  The 128-wide image is then summed over the neighbours of each vertex along the undirected edge list
  (`neighbourSum`: a gather of the source rows followed by a scatter-add into the destination rows, the edge list
  read in both directions), and the result is the 256-wide image with the neighbour sums added to its first
  128 columns (`combine`).
-/
import proofs.«175955_j13589276524721_1_alg».proof.KernelIdeal
import Idealize.ShloMosaic.PureOps.Ideal
import Idealize.ShloMosaic.Lib.ValueIdx

noncomputable section

open scoped BigOperators

namespace Cert.GraphConv

open Idealize.ShloMosaic Idealize.ShloMosaic.ValueIdx Cert.KernelIdeal Cert.KernelIdeal.Facts₀

/-- Entry `(p, q)` of an affine map: row `p` of `x` against row `q` of `w`, plus entry `q` of the bias. -/
def linearAt {N : Nat} (x : FVec Ideal ⟨2, ![200000, 256]⟩ .f32) (w : FVec Ideal ⟨2, ![N, 256]⟩ .f32)
    (b : FVec Ideal ⟨1, ![N]⟩ .f32) (p : Fin 200000) (q : Fin N) : EReal :=
  (∑ k : Fin 256, x (ix2 p k) * w (ix2 q k)) + b (ix1 q)

/-- The affine map as a whole array. -/
def linear {N : Nat} (x : FVec Ideal ⟨2, ![200000, 256]⟩ .f32) (w : FVec Ideal ⟨2, ![N, 256]⟩ .f32)
    (b : FVec Ideal ⟨1, ![N]⟩ .f32) : FVec Ideal ⟨2, ![200000, N]⟩ .f32 :=
  fun i => linearAt x w b (i 0) (i 1)

theorem linear_apply {N : Nat} (x : FVec Ideal ⟨2, ![200000, 256]⟩ .f32) (w : FVec Ideal ⟨2, ![N, 256]⟩ .f32)
    (b : FVec Ideal ⟨1, ![N]⟩ .f32) (p : Fin 200000) (q : Fin N) : linear x w b (ix2 p q) = linearAt x w b p q := rfl

/-- Entry `(p, q)` of the combination: the neighbour sums are added to the first 128 columns only. -/
def combineAt (a : FVec Ideal ⟨2, ![200000, 256]⟩ .f32) (s : FVec Ideal ⟨2, ![200000, 128]⟩ .f32)
    (p : Fin 200000) (q : Fin 256) : EReal :=
  if h : q.val < 128 then a (ix2 p q) + s (ix2 p ⟨q.val, h⟩) else a (ix2 p q)

/-- The combination as a whole array. -/
def combine (a : FVec Ideal ⟨2, ![200000, 256]⟩ .f32) (s : FVec Ideal ⟨2, ![200000, 128]⟩ .f32) :
    FVec Ideal ⟨2, ![200000, 256]⟩ .f32 :=
  fun i => combineAt a s (i 0) (i 1)

theorem combine_apply (a : FVec Ideal ⟨2, ![200000, 256]⟩ .f32) (s : FVec Ideal ⟨2, ![200000, 128]⟩ .f32)
    (p : Fin 200000) (q : Fin 256) : combine a s (ix2 p q) = combineAt a s p q := rfl

/-! ## The tiling: both kernels walk the 200000 rows in 100 blocks of 2000 -/

/-- Row `p` of block `n` is row `2000 · n + p` of the array. -/
def blockRow (n : Nat) (hn : n < 100) (p : Fin 2000) : Fin 200000 := ⟨n * 2000 + p.val, by have := p.isLt; omega⟩

theorem blockRow_val (n : Nat) (hn : n < 100) (p : Fin 2000) : (blockRow n hn p).val = n * 2000 + p.val := rfl

/-! ## The kernels' own spelling of the affine map: the weights already transposed, the bias a one-row matrix -/

/-- Entry `(r, q)`: row `r` of `x` against column `q` of `w`, plus entry `(0, q)` of the bias row. -/
def rowsTimesColsAt {N : Nat} (x : FVec Ideal ⟨2, ![200000, 256]⟩ .f32) (w : FVec Ideal ⟨2, ![256, N]⟩ .f32)
    (b : FVec Ideal ⟨2, ![1, N]⟩ .f32) (r : Fin 200000) (q : Fin N) : EReal :=
  (∑ k : Fin 256, x (ix2 r k) * w (ix2 k q)) + b (ix2 (0 : Fin 1) q)

/-- The same as a whole array. -/
def rowsTimesCols {N : Nat} (x : FVec Ideal ⟨2, ![200000, 256]⟩ .f32) (w : FVec Ideal ⟨2, ![256, N]⟩ .f32)
    (b : FVec Ideal ⟨2, ![1, N]⟩ .f32) : FVec Ideal ⟨2, ![200000, N]⟩ .f32 :=
  fun i => rowsTimesColsAt x w b (i 0) (i 1)

theorem rowsTimesCols_apply {N : Nat} (x : FVec Ideal ⟨2, ![200000, 256]⟩ .f32) (w : FVec Ideal ⟨2, ![256, N]⟩ .f32)
    (b : FVec Ideal ⟨2, ![1, N]⟩ .f32) (r : Fin 200000) (q : Fin N) :
    rowsTimesCols x w b (ix2 r q) = rowsTimesColsAt x w b r q := rfl

variable [Cert.KernelIdeal.Facts]

/-- The sum over neighbours: for every edge `(a, b)` row `b` of `y` is added into row `a` and row `a` into row `b`,
    starting from zero. The source rows are the second column of the edge list followed by the first (a negative
    entry counted from the end), the destination rows the first column followed by the second. It is carried as
    one function of `y` and the edge list and is never opened. -/
def neighbourSum (y : FVec Ideal S200000x128 .f32) (e : IVec S600000x2 32) : FVec Ideal S200000x128 .f32 :=
  Host.scatterAdd scatter_S200000x128_S1200000x1_S1200000x128_1_0_0_1
    (broadcastInDim S200000x128 ![] bcast_S_S200000x128 (constant (F := Ideal) S_ .f32 0x00000000#32))
    (broadcastInDim S1200000x1 ![0] bcast_S1200000_S1200000x1_0
      (concatenate S1200000 0 [⟨S600000, (shapeCast _ (extractStridedSlice S600000x1 ![0, 0] e slices_S600000x2_S600000x1_0_0) shapeCasts_S600000x1_S600000)⟩, ⟨S600000, (shapeCast _ (extractStridedSlice S600000x1 ![0, 1] e slices_S600000x2_S600000x1_0_1) shapeCasts_S600000x1_S600000)⟩] concatenates_S600000_S600000_S1200000_d0))
    (Host.gather gather_S200000x128_S1200000x1_S1200000x128_1_0_n_n_0_1_1128 y
      (broadcastInDim S1200000x1 ![0] bcast_S1200000_S1200000x1_0
        (select (cmpi .slt (concatenate S1200000 0 [⟨S600000, (shapeCast _ (extractStridedSlice S600000x1 ![0, 1] e slices_S600000x2_S600000x1_0_1) shapeCasts_S600000x1_S600000)⟩, ⟨S600000, (shapeCast _ (extractStridedSlice S600000x1 ![0, 0] e slices_S600000x2_S600000x1_0_0) shapeCasts_S600000x1_S600000)⟩] concatenates_S600000_S600000_S1200000_d0) (broadcastInDim S1200000 ![] bcast_S_S1200000 (constantI S_ 32 0#32)))
          (addi (concatenate S1200000 0 [⟨S600000, (shapeCast _ (extractStridedSlice S600000x1 ![0, 1] e slices_S600000x2_S600000x1_0_1) shapeCasts_S600000x1_S600000)⟩, ⟨S600000, (shapeCast _ (extractStridedSlice S600000x1 ![0, 0] e slices_S600000x2_S600000x1_0_0) shapeCasts_S600000x1_S600000)⟩] concatenates_S600000_S600000_S1200000_d0) (broadcastInDim S1200000 ![] bcast_S_S1200000 (constantI S_ 32 200000#32)))
          (concatenate S1200000 0 [⟨S600000, (shapeCast _ (extractStridedSlice S600000x1 ![0, 1] e slices_S600000x2_S600000x1_0_1) shapeCasts_S600000x1_S600000)⟩, ⟨S600000, (shapeCast _ (extractStridedSlice S600000x1 ![0, 0] e slices_S600000x2_S600000x1_0_0) shapeCasts_S600000x1_S600000)⟩] concatenates_S600000_S600000_S1200000_d0))))

/-- The whole computation: the 256-wide affine image of the features, with the neighbour sums of the 128-wide
    affine image added to its first 128 columns. -/
def result (x : FVec Ideal S200000x256 .f32) (e : IVec S600000x2 32) (w0 : FVec Ideal S256x256 .f32)
    (b0 : FVec Ideal S256 .f32) (w1 : FVec Ideal S128x256 .f32) (b1 : FVec Ideal S128 .f32) :
    FVec Ideal S200000x256 .f32 :=
  combine (linear x w0 b0) (neighbourSum (linear x w1 b1) e)

end Cert.GraphConv

end
-- ==== Proof.Reference.lean ====
/-
  The reference computes `result`.

  Its two products against the transposed weight matrices, read at an entry, are the sums of `linearAt`: the transposed
  matrix at `(k, q)` is the weight matrix at `(q, k)`, and the bias is broadcast along the rows. Its gather and scatter-add
  over the edge list are `neighbourSum` verbatim. Its last step pads the neighbour sums with zeros on the right to 256
  columns and adds: inside the first 128 columns that is the sum, and beyond them it adds the padding value, the integer
  zero converted, which is the real zero, so the entry is unchanged.
-/
import proofs.«175955_j13589276524721_1_alg».proof.Proof.Gen.KernelIdeal
import proofs.«175955_j13589276524721_1_alg».proof.Proof.Gen.ReferenceIdeal.Read
import proofs.«175955_j13589276524721_1_alg».proof.Proof.Spec
import Idealize.ShloMosaic.Lib.KernelVsHost
import Idealize.ShloMosaic.Lib.ValueLayout

noncomputable section

open scoped BigOperators

namespace Cert.GraphConv.Reference

open Idealize.ShloMosaic Idealize.ShloMosaic.ValueIdx Cert.ReferenceIdeal Cert.ReferenceIdeal.Read Cert.GraphConv

/-- The 256-wide affine image: the product against the transposed weights plus the broadcast bias. -/
theorem wide_eq (x0 : FVec Ideal S200000x256 .f32) (x2 : FVec Ideal S256x256 .f32) (x3 : FVec Ideal S256 .f32) :
    val_main_v4 (F := Ideal) x0 x2 x3 = linear x0 x2 x3 := by
  funext i
  obtain ⟨p, q, rfl⟩ : ∃ (p : Fin 200000) (q : Fin 256), i = ix2 p q := ⟨i 0, i 1, eq_ix2 i⟩
  have el : ∀ k : Fin 256, lidx_main_v1 (ix2 p q) k = ix2 p k := fun k =>
    funext fun a => Fin.ext (by match a with | ⟨0, _⟩ => rfl | ⟨1, _⟩ => rfl)
  have er : ∀ k : Fin 256, idx_main_v0 (ridx_main_v1 (ix2 p q) k) = ix2 q k := fun k =>
    funext fun a => Fin.ext (by match a with | ⟨0, _⟩ => rfl | ⟨1, _⟩ => rfl)
  have eb : idx_main_v2 (idx_main_v3 (ix2 p q)) = ix1 q :=
    funext fun a => Fin.ext (by match a with | ⟨0, _⟩ => rfl)
  rw [val_main_v4_apply, val_main_v1_apply, val_main_v3_apply, val_main_v2_apply, linear_apply, eb]
  unfold linearAt
  simp only [val_main_v0_apply, el, er, Ideal.addf_def]

/-- The 128-wide affine image, likewise. -/
theorem narrow_eq (x0 : FVec Ideal S200000x256 .f32) (x4 : FVec Ideal S128x256 .f32) (x5 : FVec Ideal S128 .f32) :
    val_main_v9 (F := Ideal) x0 x4 x5 = linear x0 x4 x5 := by
  funext i
  obtain ⟨p, q, rfl⟩ : ∃ (p : Fin 200000) (q : Fin 128), i = ix2 p q := ⟨i 0, i 1, eq_ix2 i⟩
  have el : ∀ k : Fin 256, lidx_main_v6 (ix2 p q) k = ix2 p k := fun k =>
    funext fun a => Fin.ext (by match a with | ⟨0, _⟩ => rfl | ⟨1, _⟩ => rfl)
  have er : ∀ k : Fin 256, idx_main_v5 (ridx_main_v6 (ix2 p q) k) = ix2 q k := fun k =>
    funext fun a => Fin.ext (by match a with | ⟨0, _⟩ => rfl | ⟨1, _⟩ => rfl)
  have eb : idx_main_v7 (idx_main_v8 (ix2 p q)) = ix1 q :=
    funext fun a => Fin.ext (by match a with | ⟨0, _⟩ => rfl)
  rw [val_main_v9_apply, val_main_v6_apply, val_main_v8_apply, val_main_v7_apply, linear_apply, eb]
  unfold linearAt
  simp only [val_main_v5_apply, el, er, Ideal.addf_def]

/-- The gather and the scatter-add over the edge list are the neighbour sum of the 128-wide image. -/
theorem sums_eq (x0 : FVec Ideal S200000x256 .f32) (x1 : IVec S600000x2 32) (x4 : FVec Ideal S128x256 .f32)
    (x5 : FVec Ideal S128 .f32) :
    val_main_v29 (F := Ideal) x0 x1 x4 x5 = neighbourSum (val_main_v9 (F := Ideal) x0 x4 x5) x1 := by
  unfold val_main_v29 val_main_v28 val_main_v27 val_main_v26 val_main_v25 val_main_v24 val_main_v23 val_main_v22
    val_main_v21 val_main_v20 val_main_v19 val_main_v18 val_main_v17 val_main_v16 val_main_v15 val_main_v14
    val_main_v13 val_main_v12 val_main_v11 val_main_v10 val_main_c val_main_c_0 val_main_cst neighbourSum
  generalize val_main_v9 (F := Ideal) x0 x4 x5 = y
  rfl

/-- The padding value, the integer zero converted to a float, is the real zero. -/
theorem pad_value : val_main_call0_v0 (F := Ideal) (Shape.Idx.first (by decide : 0 < S_.numel)) = 0 := by
  rw [val_main_call0_v0_apply, val_main_c_1_apply]
  show ((((0#32 : BitVec 32).toInt : ℝ)) : EReal) = 0
  simp

/-- Adding the zero-padded neighbour sums is `combine`. -/
theorem add_padded_eq (a : FVec Ideal S200000x256 .f32) (s : FVec Ideal S200000x128 .f32) :
    addf a (pad S200000x256 ![0, 0] ![0, 128] ![0, 0] s (val_main_call0_v0 (F := Ideal))
      Facts₀.pads_S200000x128_S200000x256_000_01280 Facts₀.h_S_) = combine a s := by
  funext i
  obtain ⟨p, q, rfl⟩ : ∃ (p : Fin 200000) (q : Fin 256), i = ix2 p q := ⟨i 0, i 1, eq_ix2 i⟩
  rw [addf_apply, combine_apply]
  unfold combineAt
  by_cases h : q.val < 128
  · rw [dif_pos h]
    refine congrArg (a (ix2 p q) + ·) ?_
    refine pad_apply_of_inside _ _ _ s _ _ _ (ix2 p q) (ix2 p ⟨q.val, h⟩) fun ax => ?_
    match ax with
    | ⟨0, _⟩ => show p.val = 0 + p.val * (0 + 1); omega
    | ⟨1, _⟩ => show q.val = 0 + q.val * (0 + 1); omega
  · rw [dif_neg h]
    have hp := pad_apply_of_not_inside (![0, 0] : Fin 2 → Nat) ![0, 128] ![0, 0] s (val_main_call0_v0 (F := Ideal))
      Facts₀.pads_S200000x128_S200000x256_000_01280 Facts₀.h_S_ (ix2 p q) (1 : Fin 2) (by
        show ¬(0 ≤ q.val ∧ (q.val - 0) % (0 + 1) = 0 ∧ (q.val - 0) / (0 + 1) < 128)
        omega)
    rw [hp, pad_value, add_zero]

/-- The reference's result is `result` of its arguments. -/
theorem value_eq (x0 : FVec Ideal S200000x256 .f32) (x1 : IVec S600000x2 32) (x2 : FVec Ideal S256x256 .f32)
    (x3 : FVec Ideal S256 .f32) (x4 : FVec Ideal S128x256 .f32) (x5 : FVec Ideal S128 .f32) :
    val_main_v31 (F := Ideal) x0 x1 x2 x3 x4 x5 = result x0 x1 x2 x3 x4 x5 := by
  unfold val_main_v31 val_main_v30 result
  rw [sums_eq, wide_eq, narrow_eq]
  exact add_padded_eq _ _

end Cert.GraphConv.Reference

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.Project.lean ====
/-
  The first kernel: at grid point `t` it loads rows `2000·t … 2000·t + 1999` of the features, the two transposed weight
  matrices and the two bias rows whole, and writes back the two blocks of products plus bias. Entry `(p, q)` of a
  written block is `(∑ k, x[2000·t + p, k] · w[k, q]) + b[0, q]` (the change of float format on the way into the matrix
  unit is the identity on extended reals, and the accumulator starts at zero), which is entry `(2000·t + p, q)` of
  `rowsTimesCols`. The 100 blocks tile the rows, so each output array ends as `rowsTimesCols` of the arrays the kernel
  was entered with. Everything here is stated for arbitrary entry contents `V`.
-/
import proofs.«175955_j13589276524721_1_alg».proof.Proof.Gen.KernelIdeal.Frame
import proofs.«175955_j13589276524721_1_alg».proof.Proof.Spec
import proofs.«175955_j13589276524721_1_alg».proof.Proof.LibMatmulNN
import Idealize.ShloMosaic.Lib.Pipeline.Value
import Idealize.ShloMosaic.Lib.ValueLayout

noncomputable section

open scoped BigOperators

namespace Cert.GraphConv.Project

open Cert.KernelIdeal Cert.KernelIdeal.Gen Idealize.ShloMosaic Idealize.ShloMosaic.TcCoe Idealize.ShloMosaic.ValueIdx
  Idealize.SL.Sem Cert.GraphConv
open Idealize.ShloMosaic.Pipeline (Dat)

/-! ## One block's arithmetic -/

/-- Entry `(p, q)` of the 256-wide block the body stores. -/
theorem wide_block_apply (x0 : Vec Ideal S2000x256 .f32) (x1 : Vec Ideal S256x256 .f32) (x2 : Vec Ideal S1x256 .f32)
    (p : Fin 2000) (q : Fin 256) :
    k0_pay2 (F := Ideal) x0 x1 x2 (ix2 p q) = (∑ k : Fin 256, x0 (ix2 p k) * x1 (ix2 k q)) + x2 (ix2 (0 : Fin 1) q) := by
  unfold k0_pay2 k0_pay1
  simp only [shapeCast_self]
  rw [addf_apply, broadcastTo_1b_ab_apply]
  refine congrArg (· + x2 (ix2 (0 : Fin 1) q)) ?_
  exact LibMatmulNN.matmul_zero_apply 2000 256 256 none _ _ p q

/-- Entry `(p, q)` of the 128-wide block the body stores. -/
theorem narrow_block_apply (x0 : Vec Ideal S2000x256 .f32) (x3 : Vec Ideal S256x128 .f32) (x4 : Vec Ideal S1x128 .f32)
    (p : Fin 2000) (q : Fin 128) :
    k0_pay3 (F := Ideal) x0 x3 x4 (ix2 p q) = (∑ k : Fin 256, x0 (ix2 p k) * x3 (ix2 k q)) + x4 (ix2 (0 : Fin 1) q) := by
  unfold k0_pay3 k0_pay1
  simp only [shapeCast_self]
  rw [addf_apply, broadcastTo_1b_ab_apply]
  refine congrArg (· + x4 (ix2 (0 : Fin 1) q)) ?_
  exact LibMatmulNN.matmul_zero_apply 2000 256 128 none _ _ p q

/-! ## Where each window's block sits -/

theorem zero_offsets : (![0, 0] : Fin 2 → Nat) = fun _ => 0 := funext fun a => by fin_cases a <;> rfl

theorem points : cfg0.N = 100 := N_0

/-- The printed index maps over the grid: the feature window and both output windows are at block row `t`, every other
    window is its whole array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 100 := lt_of_lt_of_eq t.isLt points

variable (V : (c : Dev nD) → (b : Ref sig .tc) → Buf (Elt Ideal) ((c : Thread nD τ).loc b))

/-- The feature block at point `t` holds rows `2000·t …` of the features. -/
theorem features_block (c : Dev nD) (t : Fin cfg0.N) (p : Fin 2000) (k : Fin 256) :
    iblk0 V c 0 t (ix2 p k) = V c main_arg0 (ix2 (blockRow t.val (point_lt t) p) k) := by
  obtain ⟨e0, e1, -⟩ := block_indices t
  show V c main_arg0 (((cfg0.win 0).blk t).view.emb (ix2 p k)) = V c main_arg0 (ix2 (blockRow t.val (point_lt t) p) k)
  have h : ((cfg0.win 0).blk t).view.emb (ix2 p k) = ix2 (blockRow t.val (point_lt t) p) k := by
    funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  rw [h]

/-- The 256-wide transposed weights are loaded whole. -/
theorem wide_weights_block (c : Dev nD) (t : Fin cfg0.N) (k : Fin 256) (q : Fin 256) :
    iblk0 V c 1 t (ix2 k q) = V c main_v0 (ix2 k q) := by
  obtain ⟨-, -, e0, e1, -⟩ := block_indices t
  show V c main_v0 (((cfg0.win 1).blk t).view.emb (ix2 k q)) = V c main_v0 (ix2 k q)
  have h : ((cfg0.win 1).blk t).view.emb (ix2 k q) = ix2 k q := by
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  rw [h]

/-- The 256-wide bias row is loaded whole. -/
theorem wide_bias_block (c : Dev nD) (t : Fin cfg0.N) (q : Fin 256) :
    iblk0 V c 2 t (ix2 (0 : Fin 1) q) = V c main_v2 (ix2 (0 : Fin 1) q) := by
  obtain ⟨-, -, -, -, e0, e1, -⟩ := block_indices t
  show V c main_v2 (((cfg0.win 2).blk t).view.emb (ix2 (0 : Fin 1) q)) = V c main_v2 (ix2 (0 : Fin 1) q)
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 256 + 1 * q.val = q.val; omega
  rw [h]

/-- The 128-wide transposed weights are loaded whole. -/
theorem narrow_weights_block (c : Dev nD) (t : Fin cfg0.N) (k : Fin 256) (q : Fin 128) :
    iblk0 V c 3 t (ix2 k q) = V c main_v1 (ix2 k q) := by
  obtain ⟨-, -, -, -, -, -, e0, e1, -⟩ := block_indices t
  show V c main_v1 (((cfg0.win 3).blk t).view.emb (ix2 k q)) = V c main_v1 (ix2 k q)
  have h : ((cfg0.win 3).blk t).view.emb (ix2 k q) = ix2 k q := by
    funext a; apply Fin.ext
    match a with
    | ⟨0, _⟩ => show win0_3.index t (0 : Fin 2) * 256 + 1 * k.val = k.val; omega
    | ⟨1, _⟩ => show win0_3.index t (1 : Fin 2) * 128 + 1 * q.val = q.val; omega
  rw [h]

/-- The 128-wide bias row is loaded whole. -/
theorem narrow_bias_block (c : Dev nD) (t : Fin cfg0.N) (q : Fin 128) :
    iblk0 V c 4 t (ix2 (0 : Fin 1) q) = V c main_v3 (ix2 (0 : Fin 1) q) := by
  obtain ⟨-, -, -, -, -, -, -, -, e0, e1, -⟩ := block_indices t
  show V c main_v3 (((cfg0.win 4).blk t).view.emb (ix2 (0 : Fin 1) q)) = V c main_v3 (ix2 (0 : Fin 1) q)
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  rw [h]

/-! ## What each point writes back -/

/-- Point `t` writes back block `t` of the 256-wide `rowsTimesCols`. -/
theorem wide_flushed (c : Dev nD) (t : Fin cfg0.N) :
    (dat0 V c).flushed 5 t
      = ((cfg0.win 5).blk t).view.read (Elt Ideal) (rowsTimesCols (V c main_arg0) (V c main_v0) (V c main_v2)) := by
  show (cfg0.win 5).cut (grid0.coords t) ((dat0 V c).after 5 t) = _
  rw [after0_5]
  unfold out0_5
  rw [View.canon_unit_zero zero_offsets]
  simp only [View.ld_unit_zero (S := S2000x256) zero_offsets, View.ld_unit_zero (S := S256x256) zero_offsets,
    View.ld_unit_zero (S := S1x256) zero_offsets]
  obtain ⟨-, -, -, -, -, -, -, -, -, -, e0, e1, -⟩ := block_indices t
  funext j
  obtain ⟨p, q, rfl⟩ : ∃ (p : Fin 2000) (q : Fin 256), j = ix2 p q := ⟨j 0, j 1, eq_ix2 j⟩
  show k0_pay2 (iblk0 V c 0 t) (iblk0 V c 1 t) (iblk0 V c 2 t) (ix2 p q)
    = rowsTimesCols (V c main_arg0) (V c main_v0) (V c main_v2) (((cfg0.win 5).blk t).view.emb (ix2 p q))
  have h : ((cfg0.win 5).blk t).view.emb (ix2 p q) = ix2 (blockRow t.val (point_lt t) p) q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  rw [h, rowsTimesCols_apply]
  refine (wide_block_apply (iblk0 V c 0 t) (iblk0 V c 1 t) (iblk0 V c 2 t) p q).trans ?_
  unfold rowsTimesColsAt
  rw [wide_bias_block V c t q]
  refine congrArg (· + V c main_v2 (ix2 (0 : Fin 1) q)) ?_
  exact Finset.sum_congr rfl fun k _ => by rw [features_block V c t p k, wide_weights_block V c t k q]

/-- Point `t` writes back block `t` of the 128-wide `rowsTimesCols`. -/
theorem narrow_flushed (c : Dev nD) (t : Fin cfg0.N) :
    (dat0 V c).flushed 6 t
      = ((cfg0.win 6).blk t).view.read (Elt Ideal) (rowsTimesCols (V c main_arg0) (V c main_v1) (V c main_v3)) := by
  show (cfg0.win 6).cut (grid0.coords t) ((dat0 V c).after 6 t) = _
  rw [after0_6]
  unfold out0_6
  rw [View.canon_unit_zero zero_offsets]
  simp only [View.ld_unit_zero (S := S2000x256) zero_offsets, View.ld_unit_zero (S := S256x128) zero_offsets,
    View.ld_unit_zero (S := S1x128) zero_offsets]
  obtain ⟨-, -, -, -, -, -, -, -, -, -, -, -, e0, e1⟩ := block_indices t
  funext j
  obtain ⟨p, q, rfl⟩ : ∃ (p : Fin 2000) (q : Fin 128), j = ix2 p q := ⟨j 0, j 1, eq_ix2 j⟩
  show k0_pay3 (iblk0 V c 0 t) (iblk0 V c 3 t) (iblk0 V c 4 t) (ix2 p q)
    = rowsTimesCols (V c main_arg0) (V c main_v1) (V c main_v3) (((cfg0.win 6).blk t).view.emb (ix2 p q))
  have h : ((cfg0.win 6).blk t).view.emb (ix2 p q) = ix2 (blockRow t.val (point_lt t) p) q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  rw [h, rowsTimesCols_apply]
  refine (narrow_block_apply (iblk0 V c 0 t) (iblk0 V c 3 t) (iblk0 V c 4 t) p q).trans ?_
  unfold rowsTimesColsAt
  rw [narrow_bias_block V c t q]
  refine congrArg (· + V c main_v3 (ix2 (0 : Fin 1) q)) ?_
  exact Finset.sum_congr rfl fun k _ => by rw [features_block V c t p k, narrow_weights_block V c t k q]

/-! ## The blocks tile the rows -/

theorem mem_wide_block (t : Fin cfg0.N) (i : S200000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v4_0).slice (win0_5.rect t)).set ↔ _
  rw [View.set_slice_whole, Rect.mem_set_unit]
  exact Iff.rfl

theorem mem_narrow_block (t : Fin cfg0.N) (i : S200000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v4_1).slice (win0_6.rect t)).set ↔ _
  rw [View.set_slice_whole, Rect.mem_set_unit]
  exact Iff.rfl

/-- Row `r` lies in the block of point `r / 2000`. -/
theorem wide_cover (i : S200000x256.Idx) :
    ∃ t : Fin cfg0.N, (cfg0.win 5).flush t = true ∧ i ∈ ((cfg0.win 5).blk t).view.set := by
  have hi0 : (i 0).val < 200000 := (i 0).isLt
  have hi1 : (i 1).val < 256 := (i 1).isLt
  have hlt : (i 0).val / 2000 < cfg0.N := by rw [points]; omega
  obtain ⟨-, -, -, -, -, -, -, -, -, -, e0, e1, -⟩ := block_indices ⟨(i 0).val / 2000, hlt⟩
  have e0' : win0_5.index ⟨(i 0).val / 2000, hlt⟩ (0 : Fin 2) = (i 0).val / 2000 := e0
  refine ⟨⟨(i 0).val / 2000, hlt⟩, flush0_5 _, ?_⟩
  rw [mem_wide_block]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    omega
  | ⟨1, _⟩ =>
    show win0_5.index ⟨(i 0).val / 2000, hlt⟩ (1 : Fin 2) * 256 ≤ (i 1).val
      ∧ (i 1).val < win0_5.index ⟨(i 0).val / 2000, hlt⟩ (1 : Fin 2) * 256 + 256
    omega

theorem narrow_cover (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  have hlt : (i 0).val / 2000 < cfg0.N := by rw [points]; omega
  obtain ⟨-, -, -, -, -, -, -, -, -, -, -, -, e0, e1⟩ := block_indices ⟨(i 0).val / 2000, hlt⟩
  have e0' : win0_6.index ⟨(i 0).val / 2000, hlt⟩ (0 : Fin 2) = (i 0).val / 2000 := e0
  refine ⟨⟨(i 0).val / 2000, hlt⟩, flush0_6 _, ?_⟩
  rw [mem_narrow_block]
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    omega
  | ⟨1, _⟩ =>
    show win0_6.index ⟨(i 0).val / 2000, hlt⟩ (1 : Fin 2) * 128 ≤ (i 1).val
      ∧ (i 1).val < win0_6.index ⟨(i 0).val / 2000, hlt⟩ (1 : Fin 2) * 128 + 128
    omega

/-! ## The two output arrays after the kernel -/

theorem wide_final (c : Dev nD) :
    (dat0 V c).arrAt 5 cfg0.N = rowsTimesCols (V c main_arg0) (V c main_v0) (V c main_v2) :=
  (dat0 V c).arrAt_eq_of_cover 5 _ (fun t _ => wide_flushed V c t) wide_cover

theorem narrow_final (c : Dev nD) :
    (dat0 V c).arrAt 6 cfg0.N = rowsTimesCols (V c main_arg0) (V c main_v1) (V c main_v3) :=
  (dat0 V c).arrAt_eq_of_cover 6 _ (fun t _ => narrow_flushed V c t) narrow_cover

end Cert.GraphConv.Project

end
-- ==== Proof.Combine.lean ====
/-
  The second kernel: at grid point `t` it loads rows `2000·t …` of a 256-wide array `a` and of a 128-wide array `s`, and
  writes back one 256-wide block in two stores: columns `0 … 127` hold `a + s`, columns `128 … 255` hold `a` unchanged.
  The two stores tile the block, so the block is one function of the two loaded blocks (`blockCombine`), which at row
  `2000·t + p` is `combine a s`. The 100 blocks tile the rows, so the output array ends as `combine` of the two arrays the
  kernel was entered with. Everything here is stated for arbitrary entry contents `V`.
-/
import proofs.«175955_j13589276524721_1_alg».proof.Proof.Gen.KernelIdeal.Frame
import proofs.«175955_j13589276524721_1_alg».proof.Proof.Spec
import Idealize.ShloMosaic.Lib.Pipeline.Value
import Idealize.ShloMosaic.Lib.ValueLayout

noncomputable section

open scoped BigOperators

namespace Cert.GraphConv.Combine

open Cert.KernelIdeal Cert.KernelIdeal.Gen Idealize.ShloMosaic Idealize.ShloMosaic.TcCoe Idealize.ShloMosaic.ValueIdx
  Idealize.SL.Sem Cert.GraphConv
open Idealize.ShloMosaic.Pipeline (Dat)

/-! ## One block's arithmetic -/

/-- Entry `(p, q)` of the left half stored: the sum. -/
theorem left_half_apply (x0 : Vec Ideal S2000x256 .f32) (x1 : Vec Ideal S2000x128 .f32) (p : Fin 2000) (q : Fin 128) :
    k1_pay2 (F := Ideal) x0 x1 (ix2 p q) = x0 (ix2 p ⟨0 + q.val, by have := q.isLt; omega⟩) + x1 (ix2 p q) := by
  unfold k1_pay2 k1_pay1
  simp only [shapeCast_self]
  rw [addf_apply, slice2_axis1_eq]

/-- Entry `(p, q)` of the right half stored: the loaded entry `(p, 128 + q)`. -/
theorem right_half_apply (x0 : Vec Ideal S2000x256 .f32) (p : Fin 2000) (q : Fin 128) :
    k1_pay3 (F := Ideal) x0 (ix2 p q) = x0 (ix2 p ⟨128 + q.val, by have := q.isLt; omega⟩) := by
  unfold k1_pay3 k1_pay1
  simp only [shapeCast_self]
  rw [slice2_axis1_eq]

/-- Entry `(p, q)` of the block the body leaves. -/
def blockCombineAt (x0 : Vec Ideal S2000x256 .f32) (x1 : Vec Ideal S2000x128 .f32) (p : Fin 2000) (q : Fin 256) : EReal :=
  if h : q.val < 128 then x0 (ix2 p q) + x1 (ix2 p ⟨q.val, h⟩) else x0 (ix2 p q)

/-- The block the body leaves, as one function of the two loaded blocks. -/
def blockCombine (x0 : Vec Ideal S2000x256 .f32) (x1 : Vec Ideal S2000x128 .f32) : Vec Ideal S2000x256 .f32 :=
  fun y => blockCombineAt x0 x1 (y 0) (y 1)

theorem zero_offsets : (![0, 0] : Fin 2 → Nat) = fun _ => 0 := funext fun a => by fin_cases a <;> rfl

/-- The left store is `blockCombine` on its rectangle. -/
theorem left_piece (x0 : Vec Ideal S2000x256 .f32) (x1 : Vec Ideal S2000x128 .f32) (x : r1_2.shape.Idx) :
    k1_pay2 (F := Ideal) x0 x1 x = blockCombine x0 x1 (r1_2.emb x) := by
  obtain ⟨p, q, rfl⟩ : ∃ (p : Fin 2000) (q : Fin 128), x = ix2 p q := ⟨x 0, x 1, eq_ix2 x⟩
  have hq := q.isLt
  have h : r1_2.emb (ix2 p q) = ix2 p (⟨q.val, by omega⟩ : Fin 256) := by
    funext a; apply Fin.ext
    match a with
    | ⟨0, _⟩ => show 0 + 1 * p.val = p.val; omega
    | ⟨1, _⟩ => show 0 + 1 * q.val = q.val; omega
  rw [h, left_half_apply]
  show _ = blockCombineAt x0 x1 p ⟨q.val, by omega⟩
  unfold blockCombineAt
  rw [dif_pos (show (⟨q.val, by omega⟩ : Fin 256).val < 128 from hq)]
  refine congrArg₂ (· + ·) (congrArg x0 ?_) rfl
  exact congrArg (ix2 p) (Fin.ext (Nat.zero_add _))

/-- The right store is `blockCombine` on its rectangle. -/
theorem right_piece (x0 : Vec Ideal S2000x256 .f32) (x1 : Vec Ideal S2000x128 .f32) (x : r1_3.shape.Idx) :
    k1_pay3 (F := Ideal) x0 x = blockCombine x0 x1 (r1_3.emb x) := by
  obtain ⟨p, q, rfl⟩ : ∃ (p : Fin 2000) (q : Fin 128), x = ix2 p q := ⟨x 0, x 1, eq_ix2 x⟩
  have hq := q.isLt
  have h : r1_3.emb (ix2 p q) = ix2 p (⟨128 + q.val, by omega⟩ : Fin 256) := by
    funext a; apply Fin.ext
    match a with
    | ⟨0, _⟩ => show 0 + 1 * p.val = p.val; omega
    | ⟨1, _⟩ => show 128 + 1 * q.val = 128 + q.val; omega
  rw [h, right_half_apply]
  show _ = blockCombineAt x0 x1 p ⟨128 + q.val, by omega⟩
  unfold blockCombineAt
  rw [dif_neg (show ¬ (⟨128 + q.val, by omega⟩ : Fin 256).val < 128 from by show ¬ (128 + q.val < 128); omega)]

/-- The two stores tile the block: the buffer after the body is `blockCombine` of the loaded blocks. -/
theorem out_block (x0 : Vec Ideal S2000x256 .f32) (x1 : Vec Ideal S2000x128 .f32) :
    out1_2 (F := Ideal) x0 x1 = blockCombine x0 x1 := by
  funext y
  unfold out1_2
  simp only [View.ld_unit_zero (S := S2000x256) zero_offsets, View.ld_unit_zero (S := S2000x128) zero_offsets]
  refine View.canon_apply_of_pieces (blockCombine x0 x1) _ (fun pc hpc x => ?_) y (cover1_2 _ _ y)
  simp only [List.mem_cons, List.not_mem_nil, or_false] at hpc
  rcases hpc with rfl | rfl
  · exact right_piece x0 x1 x
  · exact left_piece x0 x1 x

/-! ## Where each window's block sits -/

theorem points : cfg1.N = 100 := N_1

theorem point_lt (t : Fin cfg1.N) : t.val < 100 := lt_of_lt_of_eq t.isLt points

/-- The printed index maps over the grid: all three windows are at block row `t`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The 256-wide input block at point `t` holds rows `2000·t …` of its array. -/
theorem wide_block (c : Dev nD) (t : Fin cfg1.N) (p : Fin 2000) (q : Fin 256) :
    iblk1 V c 0 t (ix2 p q) = V c main_v4_0 (ix2 (blockRow t.val (point_lt t) p) q) := by
  obtain ⟨e0, e1, -⟩ := block_indices t
  show V c main_v4_0 (((cfg1.win 0).blk t).view.emb (ix2 p q)) = V c main_v4_0 (ix2 (blockRow t.val (point_lt t) p) q)
  have h : ((cfg1.win 0).blk t).view.emb (ix2 p q) = ix2 (blockRow t.val (point_lt t) p) q := by
    funext a; apply Fin.ext
    match a with
    | ⟨0, _⟩ => show win1_0.index t (0 : Fin 2) * 2000 + 1 * p.val = t.val * 2000 + p.val; omega
    | ⟨1, _⟩ => show win1_0.index t (1 : Fin 2) * 256 + 1 * q.val = q.val; omega
  rw [h]

/-- The 128-wide input block at point `t` holds rows `2000·t …` of its array. -/
theorem narrow_block (c : Dev nD) (t : Fin cfg1.N) (p : Fin 2000) (q : Fin 128) :
    iblk1 V c 1 t (ix2 p q) = V c main_v24 (ix2 (blockRow t.val (point_lt t) p) q) := by
  obtain ⟨-, -, e0, e1, -⟩ := block_indices t
  show V c main_v24 (((cfg1.win 1).blk t).view.emb (ix2 p q)) = V c main_v24 (ix2 (blockRow t.val (point_lt t) p) q)
  have h : ((cfg1.win 1).blk t).view.emb (ix2 p q) = ix2 (blockRow t.val (point_lt t) p) q := by
    funext a; apply Fin.ext
    match a with
    | ⟨0, _⟩ => show win1_1.index t (0 : Fin 2) * 2000 + 1 * p.val = t.val * 2000 + p.val; omega
    | ⟨1, _⟩ => show win1_1.index t (1 : Fin 2) * 128 + 1 * q.val = q.val; omega
  rw [h]

/-! ## What each point writes back -/

/-- Point `t` writes back block `t` of `combine` of the two input arrays. -/
theorem flushed_eq (c : Dev nD) (t : Fin cfg1.N) :
    (dat1 V c).flushed 2 t
      = ((cfg1.win 2).blk t).view.read (Elt Ideal) (combine (V c main_v4_0) (V c main_v24)) := by
  show (cfg1.win 2).cut (grid1.coords t) ((dat1 V c).after 2 t) = _
  rw [after1_2]
  obtain ⟨-, -, -, -, e0, e1⟩ := block_indices t
  funext j
  obtain ⟨p, q, rfl⟩ : ∃ (p : Fin 2000) (q : Fin 256), j = ix2 p q := ⟨j 0, j 1, eq_ix2 j⟩
  show out1_2 (iblk1 V c 0 t) (iblk1 V c 1 t) (ix2 p q)
    = combine (V c main_v4_0) (V c main_v24) (((cfg1.win 2).blk t).view.emb (ix2 p q))
  have h : ((cfg1.win 2).blk t).view.emb (ix2 p q) = ix2 (blockRow t.val (point_lt t) p) q := by
    funext a; apply Fin.ext
    match a with
    | ⟨0, _⟩ => show win1_2.index t (0 : Fin 2) * 2000 + 1 * p.val = t.val * 2000 + p.val; omega
    | ⟨1, _⟩ => show win1_2.index t (1 : Fin 2) * 256 + 1 * q.val = q.val; omega
  rw [h, combine_apply]
  refine (congrFun (out_block (iblk1 V c 0 t) (iblk1 V c 1 t)) (ix2 p q)).trans ?_
  show blockCombineAt (iblk1 V c 0 t) (iblk1 V c 1 t) p q = _
  unfold blockCombineAt combineAt
  by_cases hq : q.val < 128
  · rw [dif_pos hq, dif_pos hq, wide_block V c t p q, narrow_block V c t p ⟨q.val, hq⟩]
  · rw [dif_neg hq, dif_neg hq, wide_block V c t p q]

/-! ## The blocks tile the rows -/

theorem mem_block (t : Fin cfg1.N) (i : S200000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v25).slice (win1_2.rect t)).set ↔ _
  rw [View.set_slice_whole, Rect.mem_set_unit]
  exact Iff.rfl

/-- Row `r` lies in the block of point `r / 2000`. -/
theorem cover (i : S200000x256.Idx) :
    ∃ t : Fin cfg1.N, (cfg1.win 2).flush t = true ∧ i ∈ ((cfg1.win 2).blk t).view.set := by
  have hi0 : (i 0).val < 200000 := (i 0).isLt
  have hi1 : (i 1).val < 256 := (i 1).isLt
  have hlt : (i 0).val / 2000 < cfg1.N := by rw [points]; omega
  obtain ⟨-, -, -, -, e0, e1⟩ := block_indices ⟨(i 0).val / 2000, hlt⟩
  have e0' : win1_2.index ⟨(i 0).val / 2000, hlt⟩ (0 : Fin 2) = (i 0).val / 2000 := e0
  refine ⟨⟨(i 0).val / 2000, hlt⟩, flush1_2 _, ?_⟩
  rw [mem_block]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    omega
  | ⟨1, _⟩ =>
    show win1_2.index ⟨(i 0).val / 2000, hlt⟩ (1 : Fin 2) * 256 ≤ (i 1).val
      ∧ (i 1).val < win1_2.index ⟨(i 0).val / 2000, hlt⟩ (1 : Fin 2) * 256 + 256
    omega

/-! ## The output array after the kernel -/

theorem final (c : Dev nD) :
    (dat1 V c).arrAt 2 cfg1.N = combine (V c main_v4_0) (V c main_v24) :=
  (dat1 V c).arrAt_eq_of_cover 2 _ (fun t _ => flushed_eq V c t) cover

end Cert.GraphConv.Combine

end
-- ==== Proof.KernelRun.lean ====
/-
  The kernel program computes `result`.

  The program is two kernels among three stretches of host operations. Before the first kernel the host transposes the two
  weight matrices and turns each bias vector into a one-row matrix; `rowsTimesCols` of those is `linear` of the arguments
  (the transpose at `(k, q)` is the matrix at `(q, k)`; the one row at `(0, q)` is the vector at `q`). Between the kernels the
  host forms the neighbour sums of the first kernel's 128-wide output: that stretch is `neighbourSum` verbatim, and it
  leaves the 256-wide output and the edge list as they were. The second kernel then leaves `combine` of the two.
  The run itself is the library's run of a program of several kernels, instantiated with the generated proof data of
  each kernel, and stated so that the result buffer's final contents are named beside the unchanged arguments.
-/
import proofs.«175955_j13589276524721_1_alg».proof.Proof.Gen.KernelIdeal.Frame
import proofs.«175955_j13589276524721_1_alg».proof.Proof.Spec
import proofs.«175955_j13589276524721_1_alg».proof.Proof.Project
import proofs.«175955_j13589276524721_1_alg».proof.Proof.Combine
import Idealize.ShloMosaic.Lib.StableHlo.Run
import Idealize.ShloMosaic.Lib.ValueLayout

set_option maxRecDepth 16384

noncomputable section

open scoped BigOperators

namespace Cert.GraphConv.KernelRun

open Cert.KernelIdeal Cert.KernelIdeal.Gen Cert.GraphConv
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

/-! ## The kernels' spelling of the affine map is the reference's -/

/-- Rows against the columns of the transposed weights, plus the bias as a one-row matrix, is rows against the rows of
    the weights plus the bias vector. -/
theorem rowsTimesCols_transposed {N : Nat} (x : FVec Ideal ⟨2, ![200000, 256]⟩ .f32) (w : FVec Ideal ⟨2, ![N, 256]⟩ .f32)
    (b : FVec Ideal ⟨1, ![N]⟩ .f32) (ht : (⟨2, ![N, 256]⟩ : Shape).Transposes [1, 0] ⟨2, ![256, N]⟩)
    (hc : (⟨1, ![N]⟩ : Shape).ShapeCasts ⟨2, ![1, N]⟩) :
    rowsTimesCols x (transpose ⟨2, ![256, N]⟩ [1, 0] w ht) (shapeCast ⟨2, ![1, N]⟩ b hc) = linear x w b := by
  funext i
  obtain ⟨r, q, rfl⟩ : ∃ (r : Fin 200000) (q : Fin N), i = ix2 r q := ⟨i 0, i 1, eq_ix2 i⟩
  rw [rowsTimesCols_apply, linear_apply]
  unfold rowsTimesColsAt linearAt
  rw [shapeCast_a_1a_apply]
  refine congrArg (· + b (ix1 q)) (Finset.sum_congr rfl fun k _ => ?_)
  rw [transpose_ix2_apply]

local notation "𝕄" => MT nD τ sig Unit (Elt Ideal) ℕ (UR sig nD τ) ℕ

variable (m : (ℓ : Loc nD τ sig) → Buf (Elt Ideal) ℓ) (ρ : Dev nD → PrngReg)

/-! ## What the first kernel is entered with -/

theorem entry_features (c : Dev nD) :
    (V1 m ρ c main_arg0 : S200000x256.Idx → EReal) = m ((c : Thread nD τ).loc main_arg0) := by
  show StableHlo.after hostOps0 (W0 m ρ c) (Proc.devRef .tc main_arg0) = _
  after_results <;> rfl

theorem entry_wide_weights (c : Dev nD) :
    (V1 m ρ c main_v0 : S256x256.Idx → EReal)
      = transpose S256x256 [1, 0] (m ((c : Thread nD τ).loc main_arg2)) Facts₀.transposes_S256x256_S256x256_1_0 := by
  show StableHlo.after hostOps0 (W0 m ρ c) (Proc.devRef .tc main_v0) = _
  after_results <;> rfl

theorem entry_narrow_weights (c : Dev nD) :
    (V1 m ρ c main_v1 : S256x128.Idx → EReal)
      = transpose S256x128 [1, 0] (m ((c : Thread nD τ).loc main_arg4)) Facts₀.transposes_S128x256_S256x128_1_0 := by
  show StableHlo.after hostOps0 (W0 m ρ c) (Proc.devRef .tc main_v1) = _
  after_results <;> rfl

theorem entry_wide_bias (c : Dev nD) :
    (V1 m ρ c main_v2 : S1x256.Idx → EReal)
      = shapeCast S1x256 (m ((c : Thread nD τ).loc main_arg3)) Facts₀.shapeCasts_S256_S1x256 := by
  show StableHlo.after hostOps0 (W0 m ρ c) (Proc.devRef .tc main_v2) = _
  after_results <;> rfl

theorem entry_narrow_bias (c : Dev nD) :
    (V1 m ρ c main_v3 : S1x128.Idx → EReal)
      = shapeCast S1x128 (m ((c : Thread nD τ).loc main_arg5)) Facts₀.shapeCasts_S128_S1x128 := by
  show StableHlo.after hostOps0 (W0 m ρ c) (Proc.devRef .tc main_v3) = _
  after_results <;> rfl

/-- After the first kernel its 256-wide output is the 256-wide affine image of the arguments. -/
theorem wide_after_first (c : Dev nD) :
    (W2 m ρ c (Proc.devRef .tc main_v4_0) : S200000x256.Idx → EReal)
      = linear (m ((c : Thread nD τ).loc main_arg0)) (m ((c : Thread nD τ).loc main_arg2)) (m ((c : Thread nD τ).loc main_arg3)) := by
  refine (W2_arr m ρ c 5).trans ((Project.wide_final (V1 m ρ) c).trans ?_)
  rw [entry_features, entry_wide_weights, entry_wide_bias]
  exact rowsTimesCols_transposed _ _ _ _ _

/-- After the first kernel its 128-wide output is the 128-wide affine image of the arguments. -/
theorem narrow_after_first (c : Dev nD) :
    (W2 m ρ c (Proc.devRef .tc main_v4_1) : S200000x128.Idx → EReal)
      = linear (m ((c : Thread nD τ).loc main_arg0)) (m ((c : Thread nD τ).loc main_arg4)) (m ((c : Thread nD τ).loc main_arg5)) := by
  refine (W2_arr m ρ c 6).trans ((Project.narrow_final (V1 m ρ) c).trans ?_)
  rw [entry_features, entry_narrow_weights, entry_narrow_bias]
  exact rowsTimesCols_transposed _ _ _ _ _

/-- The first kernel and the host operations before it leave the edge list as launched. -/
theorem edges_after_first (c : Dev nD) :
    (W2 m ρ c (Proc.devRef .tc main_arg1) : S600000x2.Idx → BitVec 32) = m ((c : Thread nD τ).loc main_arg1) := by
  refine (W2_of_ne m ρ c main_arg1 (by decide)).trans ?_
  show StableHlo.after hostOps0 (W0 m ρ c) (Proc.devRef .tc main_arg1) = _
  after_results <;> rfl

/-! ## What the second kernel is entered with -/

theorem second_entry_wide (c : Dev nD) :
    (V3 m ρ c main_v4_0 : S200000x256.Idx → EReal) = W2 m ρ c (Proc.devRef .tc main_v4_0) := by
  show StableHlo.after hostOps1 (W2 m ρ c) (Proc.devRef .tc main_v4_0) = _
  after_results_simp <;> rfl

theorem second_entry_sums (c : Dev nD) :
    (V3 m ρ c main_v24 : S200000x128.Idx → EReal)
      = neighbourSum (W2 m ρ c (Proc.devRef .tc main_v4_1)) (W2 m ρ c (Proc.devRef .tc main_arg1)) := by
  show StableHlo.after hostOps1 (W2 m ρ c) (Proc.devRef .tc main_v24) = _
  after_results_simp <;> rfl

/-! ## The result buffer after the run -/

theorem value (c : Dev nD) :
    (W4 m ρ c (Proc.devRef .tc main_v25) : S200000x256.Idx → EReal)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W4_arr m ρ c 2).trans ((Combine.final (V3 m ρ) c).trans ?_)
  rw [second_entry_wide, second_entry_sums, wide_after_first, narrow_after_first, edges_after_first]
  rfl

/-! ## The run, with the result named -/

set_option backward.isDefEq.respectTransparency.types false in
/-- Every weakly fair execution terminates, nothing faulting, with the result buffer at the last boundary's contents and
    the arguments as launched. -/
theorem run_named : θ_run defs (onTc (τ := τ) (main (F := Ideal))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The kernel program's run: the result buffer ends at `result` of the arguments, the arguments unchanged. -/
theorem run : θ_run defs (onTc (τ := τ) (main (F := Ideal))) ⟨m, fun _ => 0, ρ⟩ (fun r => ∀ c : Dev nD,
      r.2.mem ((c.tc : Thread nD τ).loc main_v25)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (run_named m ρ)

end Cert.GraphConv.KernelRun

end
-- ==== Proof.lean ====
/-
  A graph convolution over 200000 vertices and 600000 undirected edges, as two kernels around a host gather and
  scatter-add, against its plain reference — equal as extended reals, entry by entry.

  Both programs compute `Cert.GraphConv.result` (Proof/Spec.lean): two affine maps of the vertex features,
  `(∑ k, x[p, k] · w[q, k]) + b[q]`, one 256 wide and one 128 wide; the sum of the 128-wide image over each vertex's
  neighbours along the edge list; and the 256-wide image with those sums added to its first 128 columns.

  * The first kernel forms both affine images block by block, 2000 rows at a time, from the transposed weights and the
    biases as one-row matrices (Proof/Project.lean); on extended reals the change of float format into the matrix unit is
    the identity and a product accumulated from zero is the plain sum, in any order of the terms.
  * The neighbour sums are the same host operations in both programs, carried as one function (`neighbourSum`).
  * The second kernel adds the neighbour sums into columns `0 … 127` and copies columns `128 … 255` (Proof/Combine.lean);
    the reference pads the sums with zeros to 256 columns and adds, and `a + 0 = a` for every extended real, the infinite
    ones included (Proof/Reference.lean). No finiteness of the inputs is used.
  * Proof/KernelRun.lean chains the two kernels and the host stretches between them into the kernel program's run.

  The idealization rewrote nothing, so the preservation claim is the trivial one; the three programs' termination and
  unchanged arguments are the generated frames and the reference's generated run.
-/
import proofs.«175955_j13589276524721_1_alg».proof.Defs
import proofs.«175955_j13589276524721_1_alg».proof.Proof.Gen.Kernel
import proofs.«175955_j13589276524721_1_alg».proof.Proof.Gen.Kernel.Skeleton
import proofs.«175955_j13589276524721_1_alg».proof.Proof.Gen.Kernel.Launch
import proofs.«175955_j13589276524721_1_alg».proof.Proof.Gen.Kernel.Points
import proofs.«175955_j13589276524721_1_alg».proof.Proof.Gen.Kernel.Frame
import proofs.«175955_j13589276524721_1_alg».proof.Proof.Gen.KernelIdeal
import proofs.«175955_j13589276524721_1_alg».proof.Proof.Gen.KernelIdeal.Skeleton
import proofs.«175955_j13589276524721_1_alg».proof.Proof.Gen.KernelIdeal.Launch
import proofs.«175955_j13589276524721_1_alg».proof.Proof.Gen.KernelIdeal.Points
import proofs.«175955_j13589276524721_1_alg».proof.Proof.Gen.KernelIdeal.Frame
import proofs.«175955_j13589276524721_1_alg».proof.Proof.Gen.ReferenceIdeal
import proofs.«175955_j13589276524721_1_alg».proof.Proof.Gen.Pre_finite_inputs
import proofs.«175955_j13589276524721_1_alg».proof.Proof.Gen.ReferenceIdeal.Run
import proofs.«175955_j13589276524721_1_alg».proof.Proof.Gen.ReferenceIdeal.Read
import proofs.«175955_j13589276524721_1_alg».proof.Proof.Spec
import proofs.«175955_j13589276524721_1_alg».proof.Proof.Reference
import proofs.«175955_j13589276524721_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at `result` of arguments that agree. -/
theorem algebraic : Cert.algebraic_KernelIdeal_ReferenceIdeal := by
  intro m ρ m' ρ' _ hagree
  refine ⟨_, Cert.GraphConv.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.GraphConv.Reference.value_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
